-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x64 : Shape := ⟨3, ![64, 1024, 64]⟩
abbrev S1x16x1x64 : Shape := ⟨4, ![1, 16, 1, 64]⟩
abbrev S16x2048x64 : Shape := ⟨3, ![16, 2048, 64]⟩
abbrev S_ : Shape := ⟨0, ![]⟩

class Facts : Prop where
  bcast_S_S64x1024x64 : S_.BroadcastsInDim S64x1024x64 (![] : Fin 0 → Fin S64x1024x64.rank)
  reducesTo_S64x1024x64_S_d0_1_2 : S64x1024x64.ReducesTo [0, 1, 2] S_
  h_S_ : 0 < S_.numel
  bcast_S_S1x16x1x64 : S_.BroadcastsInDim S1x16x1x64 (![] : Fin 0 → Fin S1x16x1x64.rank)
  reducesTo_S1x16x1x64_S_d0_1_2_3 : S1x16x1x64.ReducesTo [0, 1, 2, 3] S_
  bcast_S_S16x2048x64 : S_.BroadcastsInDim S16x2048x64 (![] : Fin 0 → Fin S16x2048x64.rank)
  reducesTo_S16x2048x64_S_d0_1_2 : S16x2048x64.ReducesTo [0, 1, 2] S_

variable [Facts]

def fn_part1 {F : FTy → Type} [FloatOps F] (main_arg4 : FVec F S1x16x1x64 .f32) (main_arg5 : FVec F S16x2048x64 .f32) (main_v13 : IVec S_ 1) (main_v16 : IVec S1x16x1x64 1) : IVec S_ 1 :=
  let main_c_5 : IVec S_ 1 := constantI S_ 1 1#1
  let main_v17 : IVec S_ 1 := (fun x v => Host.reduce IntOp.andi x v reducesTo_S1x16x1x64_S_d0_1_2_3 h_S_) main_v16 main_c_5
  let main_v18 : IVec S_ 1 := andi main_v13 main_v17
  let main_v19 : FVec F S1x16x1x64 .f32 := Host.absf main_arg4
  let main_cst_6 : FVec F S_ .f32 := constant S_ .f32 0x7F800000#32
  let main_v20 : FVec F S1x16x1x64 .f32 := broadcastInDim S1x16x1x64 ![] bcast_S_S1x16x1x64 main_cst_6
  let main_v21 : IVec S1x16x1x64 1 := cmpf .olt main_v19 main_v20
  let main_c_7 : IVec S_ 1 := constantI S_ 1 1#1
  let main_v22 : IVec S_ 1 := (fun x v => Host.reduce IntOp.andi x v reducesTo_S1x16x1x64_S_d0_1_2_3 h_S_) main_v21 main_c_7
  let main_v23 : IVec S_ 1 := andi main_v18 main_v22
  let main_v24 : FVec F S16x2048x64 .f32 := Host.absf main_arg5
  let main_cst_8 : FVec F S_ .f32 := constant S_ .f32 0x7F800000#32
  let main_v25 : FVec F S16x2048x64 .f32 := broadcastInDim S16x2048x64 ![] bcast_S_S16x2048x64 main_cst_8
  let main_v26 : IVec S16x2048x64 1 := cmpf .olt main_v24 main_v25
  let main_c_9 : IVec S_ 1 := constantI S_ 1 1#1
  let main_v27 : IVec S_ 1 := (fun x v => Host.reduce IntOp.andi x v reducesTo_S16x2048x64_S_d0_1_2 h_S_) main_v26 main_c_9
  let main_v28 : IVec S_ 1 := andi main_v23 main_v27
  main_v28

def fn {F : FTy → Type} [FloatOps F] (main_arg0 : FVec F S64x1024x64 .f32) (main_arg1 : FVec F S64x1024x64 .f32) (main_arg2 : FVec F S64x1024x64 .f32) (main_arg3 : FVec F S1x16x1x64 .f32) (main_arg4 : FVec F S1x16x1x64 .f32) (main_arg5 : FVec F S16x2048x64 .f32) : IVec S_ 1 :=
  let main_v0 : FVec F S64x1024x64 .f32 := Host.absf main_arg0
  let main_cst : FVec F S_ .f32 := constant S_ .f32 0x7F800000#32
  let main_v1 : FVec F S64x1024x64 .f32 := broadcastInDim S64x1024x64 ![] bcast_S_S64x1024x64 main_cst
  let main_v2 : IVec S64x1024x64 1 := cmpf .olt main_v0 main_v1
  let main_c : IVec S_ 1 := constantI S_ 1 1#1
  let main_v3 : IVec S_ 1 := (fun x v => Host.reduce IntOp.andi x v reducesTo_S64x1024x64_S_d0_1_2 h_S_) main_v2 main_c
  let main_v4 : FVec F S64x1024x64 .f32 := Host.absf main_arg1
  let main_cst_0 : FVec F S_ .f32 := constant S_ .f32 0x7F800000#32
  let main_v5 : FVec F S64x1024x64 .f32 := broadcastInDim S64x1024x64 ![] bcast_S_S64x1024x64 main_cst_0
  let main_v6 : IVec S64x1024x64 1 := cmpf .olt main_v4 main_v5
  let main_c_1 : IVec S_ 1 := constantI S_ 1 1#1
  let main_v7 : IVec S_ 1 := (fun x v => Host.reduce IntOp.andi x v reducesTo_S64x1024x64_S_d0_1_2 h_S_) main_v6 main_c_1
  let main_v8 : IVec S_ 1 := andi main_v3 main_v7
  let main_v9 : FVec F S64x1024x64 .f32 := Host.absf main_arg2
  let main_cst_2 : FVec F S_ .f32 := constant S_ .f32 0x7F800000#32
  let main_v10 : FVec F S64x1024x64 .f32 := broadcastInDim S64x1024x64 ![] bcast_S_S64x1024x64 main_cst_2
  let main_v11 : IVec S64x1024x64 1 := cmpf .olt main_v9 main_v10
  let main_c_3 : IVec S_ 1 := constantI S_ 1 1#1
  let main_v12 : IVec S_ 1 := (fun x v => Host.reduce IntOp.andi x v reducesTo_S64x1024x64_S_d0_1_2 h_S_) main_v11 main_c_3
  let main_v13 : IVec S_ 1 := andi main_v8 main_v12
  let main_v14 : FVec F S1x16x1x64 .f32 := Host.absf main_arg3
  let main_cst_4 : FVec F S_ .f32 := constant S_ .f32 0x7F800000#32
  let main_v15 : FVec F S1x16x1x64 .f32 := broadcastInDim S1x16x1x64 ![] bcast_S_S1x16x1x64 main_cst_4
  let main_v16 : IVec S1x16x1x64 1 := cmpf .olt main_v14 main_v15
  fn_part1 (F := F) main_arg4 main_arg5 main_v13 main_v16
-- ==== Kernel.lean ====
abbrev S64x1024x64 : Shape := ⟨3, ![64, 1024, 64]⟩
abbrev S1x16x1x64 : Shape := ⟨4, ![1, 16, 1, 64]⟩
abbrev S16x2048x64 : Shape := ⟨3, ![16, 2048, 64]⟩
abbrev S16x1024x64 : Shape := ⟨3, ![16, 1024, 64]⟩
abbrev S64x1024x1024 : Shape := ⟨3, ![64, 1024, 1024]⟩
abbrev S1x1024x64 : Shape := ⟨3, ![1, 1024, 64]⟩
abbrev S1x1x1x64 : Shape := ⟨4, ![1, 1, 1, 64]⟩
abbrev S1x1024x1024 : Shape := ⟨3, ![1, 1024, 1024]⟩
abbrev S1024x64 : Shape := ⟨2, ![1024, 64]⟩
abbrev S1x64 : Shape := ⟨2, ![1, 64]⟩
abbrev S1024x1024 : Shape := ⟨2, ![1024, 1024]⟩
abbrev S_ : Shape := ⟨0, ![]⟩
abbrev S64x1024x1 : Shape := ⟨3, ![64, 1024, 1]⟩
abbrev S64x1024x1025 : Shape := ⟨3, ![64, 1024, 1025]⟩
abbrev S64x1025x1024 : Shape := ⟨3, ![64, 1025, 1024]⟩
abbrev S1024 : Shape := ⟨1, ![1024]⟩
abbrev S1024x1 : Shape := ⟨2, ![1024, 1]⟩

abbrev nBuf : Space → Nat
  | .hbm => 14
  | .vmem => 20
  | .smem => 0
  | _ => 0

abbrev bufTy : (tb : Table) → Fin (tcTables nBuf tb) → BufTy
  | .hbm, ⟨0, _⟩ => ⟨S64x1024x64, .f32⟩
  | .hbm, ⟨1, _⟩ => ⟨S64x1024x64, .f32⟩
  | .hbm, ⟨2, _⟩ => ⟨S64x1024x64, .f32⟩
  | .hbm, ⟨3, _⟩ => ⟨S1x16x1x64, .f32⟩
  | .hbm, ⟨4, _⟩ => ⟨S1x16x1x64, .f32⟩
  | .hbm, ⟨5, _⟩ => ⟨S16x2048x64, .f32⟩
  | .hbm, ⟨6, _⟩ => ⟨S16x1024x64, .f32⟩
  | .hbm, ⟨7, _⟩ => ⟨S64x1024x1024, .bf16⟩
  | .hbm, ⟨8, _⟩ => ⟨S_, .bf16⟩
  | .hbm, ⟨9, _⟩ => ⟨S64x1024x1, .bf16⟩
  | .hbm, ⟨10, _⟩ => ⟨S64x1024x1025, .bf16⟩
  | .hbm, ⟨11, _⟩ => ⟨S64x1025x1024, .bf16⟩
  | .hbm, ⟨12, _⟩ => ⟨S64x1024x1024, .bf16⟩
  | .hbm, ⟨13, _⟩ => ⟨S64x1024x64, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1x1x64, .f32⟩
  | .local _ .vmem, ⟨5, _⟩ => ⟨S1x1x1x64, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x64, .f32⟩
  | .local _ .vmem, ⟨9, _⟩ => ⟨S1x1024x64, .f32⟩
  | .local _ .vmem, ⟨10, _⟩ => ⟨S1x1024x64, .f32⟩
  | .local _ .vmem, ⟨11, _⟩ => ⟨S1x1024x64, .f32⟩
  | .local _ .vmem, ⟨12, _⟩ => ⟨S1x1x1x64, .f32⟩
  | .local _ .vmem, ⟨13, _⟩ => ⟨S1x1x1x64, .f32⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x64, .f32⟩
  | .local _ .vmem, ⟨17, _⟩ => ⟨S1x1024x64, .f32⟩
  | .local _ .vmem, ⟨18, _⟩ => ⟨S1x1024x64, .f32⟩
  | .local _ .vmem, ⟨19, _⟩ => ⟨S1x1024x64, .f32⟩
  | _, _ => ⟨S64x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  slices_S16x2048x64_S16x1024x64_0_0_0 : S16x2048x64.Slices ![0, 0, 0] S16x1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1x1x64_S1x1x1x64_0_0_0_0 : ∀ a, (![0, 0, 0, 0] : Fin 4 → Nat) a + S1x1x1x64.size a ≤ S1x1x1x64.size a
  h_S1x1x1x64 : 0 < S1x1x1x64.numel
  shapeCasts_S1x1x1x64_S1x64 : S1x1x1x64.ShapeCasts S1x64
  broadcasts_S1x64_S1024x64 : S1x64.Broadcasts S1024x64
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  bcast_S_S64x1024x1 : S_.BroadcastsInDim S64x1024x1 (![] : Fin 0 → Fin S64x1024x1.rank)
  concatenates_S64x1024x1_S64x1024x1024_S64x1024x1025_d2 : Shape.Concatenates [S64x1024x1, S64x1024x1024] S64x1024x1025 2
  shapeCasts_S64x1024x1025_S64x1025x1024 : S64x1024x1025.ShapeCasts S64x1025x1024
  slices_S64x1025x1024_S64x1024x1024_0_1_0 : S64x1025x1024.Slices ![0, 1, 0] S64x1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x64_S1x1024x64 : S1024x64.ShapeCasts S1x1024x64
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S64x1024x64.size a
  hwx0_0 : ∀ i : grid0.Coords, EltTy.bits .f32 = 32 ∨ (Rect.block (s := S64x1024x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S16x1024x64.size a
  hwx0_1 : ∀ i : grid0.Coords, EltTy.bits .f32 = 32 ∨ (Rect.block (s := S16x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x64.size a ≤ S1x16x1x64.size a
  hwx0_2 : ∀ i : grid0.Coords, EltTy.bits .f32 = 32 ∨ (Rect.block (s := S1x16x1x64) S1x1x1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S64x1024x1024.size a
  hwx0_3 : ∀ i : grid0.Coords, EltTy.bits .bf16 = 32 ∨ (Rect.block (s := S64x1024x1024) S1x1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S64x1024x64.size a
  hwx1_0 : ∀ i : grid1.Coords, EltTy.bits .f32 = 32 ∨ (Rect.block (s := S64x1024x64) S1x1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S64x1024x64.size a
  hwx1_1 : ∀ i : grid1.Coords, EltTy.bits .f32 = 32 ∨ (Rect.block (s := S64x1024x64) S1x1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1x64.size a ≤ S1x16x1x64.size a
  hwx1_2 : ∀ i : grid1.Coords, EltTy.bits .f32 = 32 ∨ (Rect.block (s := S1x16x1x64) S1x1x1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S64x1024x1024.size a
  hwx1_3 : ∀ i : grid1.Coords, EltTy.bits .bf16 = 32 ∨ (Rect.block (s := S64x1024x1024) S1x1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x64.size a ≤ S64x1024x64.size a
  hwx1_4 : ∀ i : grid1.Coords, EltTy.bits .f32 = 32 ∨ (Rect.block (s := S64x1024x64) S1x1024x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x64.size a ≤ S64x1024x64.size a
  hwx1_5 : ∀ i : grid1.Coords, EltTy.bits .f32 = 32 ∨ (Rect.block (s := S64x1024x64) S1x1024x64.size (cc1_transform_5 i) (hinb1_5 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x1x1x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x1x1x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S1x1024x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x1024x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x1024x64 : Shape := ⟨3, ![64, 1024, 64]⟩
abbrev S1x16x1x64 : Shape := ⟨4, ![1, 16, 1, 64]⟩
abbrev S16x2048x64 : Shape := ⟨3, ![16, 2048, 64]⟩
abbrev S_ : Shape := ⟨0, ![]⟩
abbrev S4x16x1024x64 : Shape := ⟨4, ![4, 16, 1024, 64]⟩
abbrev S16x1024x64 : Shape := ⟨3, ![16, 1024, 64]⟩
abbrev S1x16x1x1024x1x64 : Shape := ⟨6, ![1, 16, 1, 1024, 1, 64]⟩
abbrev S4x16x1x1024x1x64 : Shape := ⟨6, ![4, 16, 1, 1024, 1, 64]⟩
abbrev S64x1024x1024 : Shape := ⟨3, ![64, 1024, 1024]⟩
abbrev S64x1024x1 : Shape := ⟨3, ![64, 1024, 1]⟩
abbrev S64x1024x1025 : Shape := ⟨3, ![64, 1024, 1025]⟩
abbrev S64x1025x1024 : Shape := ⟨3, ![64, 1025, 1024]⟩
abbrev S64x1024 : Shape := ⟨2, ![64, 1024]⟩

abbrev nBuf : Space → Nat
  | .hbm => 43
  | .vmem => 0
  | .smem => 0
  | _ => 0

abbrev bufTy : (tb : Table) → Fin (tcTables nBuf tb) → BufTy
  | .hbm, ⟨0, _⟩ => ⟨S64x1024x64, .f32⟩
  | .hbm, ⟨1, _⟩ => ⟨S64x1024x64, .f32⟩
  | .hbm, ⟨2, _⟩ => ⟨S64x1024x64, .f32⟩
  | .hbm, ⟨3, _⟩ => ⟨S1x16x1x64, .f32⟩
  | .hbm, ⟨4, _⟩ => ⟨S1x16x1x64, .f32⟩
  | .hbm, ⟨5, _⟩ => ⟨S16x2048x64, .f32⟩
  | .hbm, ⟨6, _⟩ => ⟨S_, .f32⟩
  | .hbm, ⟨7, _⟩ => ⟨S64x1024x64, .f32⟩
  | .hbm, ⟨8, _⟩ => ⟨S64x1024x64, .f32⟩
  | .hbm, ⟨9, _⟩ => ⟨S4x16x1024x64, .f32⟩
  | .hbm, ⟨10, _⟩ => ⟨S4x16x1024x64, .f32⟩
  | .hbm, ⟨11, _⟩ => ⟨S4x16x1024x64, .f32⟩
  | .hbm, ⟨12, _⟩ => ⟨S64x1024x64, .f32⟩
  | .hbm, ⟨13, _⟩ => ⟨S4x16x1024x64, .f32⟩
  | .hbm, ⟨14, _⟩ => ⟨S4x16x1024x64, .f32⟩
  | .hbm, ⟨15, _⟩ => ⟨S64x1024x64, .f32⟩
  | .hbm, ⟨16, _⟩ => ⟨S16x1024x64, .f32⟩
  | .hbm, ⟨17, _⟩ => ⟨S1x16x1x1024x1x64, .f32⟩
  | .hbm, ⟨18, _⟩ => ⟨S4x16x1x1024x1x64, .f32⟩
  | .hbm, ⟨19, _⟩ => ⟨S64x1024x64, .f32⟩
  | .hbm, ⟨20, _⟩ => ⟨S64x1024x1024, .f32⟩
  | .hbm, ⟨21, _⟩ => ⟨S64x1024x1024, .f32⟩
  | .hbm, ⟨22, _⟩ => ⟨S_, .f32⟩
  | .hbm, ⟨23, _⟩ => ⟨S64x1024x1, .f32⟩
  | .hbm, ⟨24, _⟩ => ⟨S64x1024x1025, .f32⟩
  | .hbm, ⟨25, _⟩ => ⟨S64x1025x1024, .f32⟩
  | .hbm, ⟨26, _⟩ => ⟨S64x1024x1024, .f32⟩
  | .hbm, ⟨27, _⟩ => ⟨S64x1024x1024, .f32⟩
  | .hbm, ⟨28, _⟩ => ⟨S_, .f32⟩
  | .hbm, ⟨29, _⟩ => ⟨S64x1024, .f32⟩
  | .hbm, ⟨30, _⟩ => ⟨S_, .f32⟩
  | .hbm, ⟨31, _⟩ => ⟨S64x1024, .f32⟩
  | .hbm, ⟨32, _⟩ => ⟨S64x1024, .f32⟩
  | .hbm, ⟨33, _⟩ => ⟨S64x1024x1, .f32⟩
  | .hbm, ⟨34, _⟩ => ⟨S64x1024x1024, .f32⟩
  | .hbm, ⟨35, _⟩ => ⟨S64x1024x1024, .f32⟩
  | .hbm, ⟨36, _⟩ => ⟨S64x1024x1024, .f32⟩
  | .hbm, ⟨37, _⟩ => ⟨S_, .f32⟩
  | .hbm, ⟨38, _⟩ => ⟨S64x1024, .f32⟩
  | .hbm, ⟨39, _⟩ => ⟨S64x1024x1, .f32⟩
  | .hbm, ⟨40, _⟩ => ⟨S64x1024x1024, .f32⟩
  | .hbm, ⟨41, _⟩ => ⟨S64x1024x1024, .f32⟩
  | .hbm, ⟨42, _⟩ => ⟨S64x1024x64, .f32⟩
  | _, _ => ⟨S64x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  bcast_S_S64x1024x64 : S_.BroadcastsInDim S64x1024x64 (![] : Fin 0 → Fin S64x1024x64.rank)
  shapeCasts_S64x1024x64_S4x16x1024x64 : S64x1024x64.ShapeCasts S4x16x1024x64
  bcast_S1x16x1x64_S4x16x1024x64_0_1_2_3 : S1x16x1x64.BroadcastsInDim S4x16x1024x64 (![0, 1, 2, 3] : Fin 4 → Fin S4x16x1024x64.rank)
  shapeCasts_S4x16x1024x64_S64x1024x64 : S4x16x1024x64.ShapeCasts S64x1024x64
  slices_S16x2048x64_S16x1024x64_0_0_0 : S16x2048x64.Slices ![0, 0, 0] S16x1024x64
  shapeCasts_S16x1024x64_S1x16x1x1024x1x64 : S16x1024x64.ShapeCasts S1x16x1x1024x1x64
  bcast_S1x16x1x1024x1x64_S4x16x1x1024x1x64_0_1_2_3_4_5 : S1x16x1x1024x1x64.BroadcastsInDim S4x16x1x1024x1x64 (![0, 1, 2, 3, 4, 5] : Fin 6 → Fin S4x16x1x1024x1x64.rank)
  shapeCasts_S4x16x1x1024x1x64_S64x1024x64 : S4x16x1x1024x1x64.ShapeCasts S64x1024x64
  bcast_S_S64x1024x1 : S_.BroadcastsInDim S64x1024x1 (![] : Fin 0 → Fin S64x1024x1.rank)
  concatenates_S64x1024x1_S64x1024x1024_S64x1024x1025_d2 : Shape.Concatenates [S64x1024x1, S64x1024x1024] S64x1024x1025 2
  shapeCasts_S64x1024x1025_S64x1025x1024 : S64x1024x1025.ShapeCasts S64x1025x1024
  slices_S64x1025x1024_S64x1024x1024_0_1_0 : S64x1025x1024.Slices ![0, 1, 0] S64x1024x1024
  reducesTo_S64x1024x1024_S64x1024_d2 : S64x1024x1024.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  dot_S64x1024x64_S64x1024x64_S64x1024x1024_2_2_1_1_0_0_wf : DotDims.WF S64x1024x64 S64x1024x64 S64x1024x1024 [2] [2] [1] [1] [0] [0]
  dot_S64x1024x1024_S64x1024x64_S64x1024x64_2_1_1_2_0_0_wf : DotDims.WF S64x1024x1024 S64x1024x64 S64x1024x64 [2] [1] [1] [2] [0] [0]

variable [Facts₀]

def dot_S64x1024x64_S64x1024x64_S64x1024x1024_2_2_1_1_0_0 : DotDims S64x1024x64 S64x1024x64 S64x1024x1024 where
  lhsContracting := [2]
  rhsContracting := [2]
  lhsNonContracting := [1]
  rhsNonContracting := [1]
  lhsBatch := [0]
  rhsBatch := [0]
  wf := dot_S64x1024x64_S64x1024x64_S64x1024x1024_2_2_1_1_0_0_wf
def dot_S64x1024x1024_S64x1024x64_S64x1024x64_2_1_1_2_0_0 : DotDims S64x1024x1024 S64x1024x64 S64x1024x64 where
  lhsContracting := [2]
  rhsContracting := [1]
  lhsNonContracting := [1]
  rhsNonContracting := [2]
  lhsBatch := [0]
  rhsBatch := [0]
  wf := dot_S64x1024x1024_S64x1024x64_S64x1024x64_2_1_1_2_0_0_wf

class Facts : Prop extends Facts₀ where

variable [Facts]
-- ==== Proof.KRun.lean ====
/-
  The idealized kernel's run with its result array named.

  The program is two pipelined regions among stretches of host operations.  Every weakly fair execution terminates
  without a fault; the result array ends at the contents the second region's write-backs leave (the fold of the
  boundary contents through the program: launch memory, the host slice of the position table, the first region's
  write-backs, the host pad / re-lay / cut, the second region's write-backs), and the six argument arrays end as
  launched.
-/
import proofs.«127537_j48670569398462_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and every argument array as launched: the launch over the program's four segments, the last
    thread state read against the final state at each of the seven buffers. -/
theorem run_named : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

/-- The result array is the second region's output window's array, so the last boundary holds there what that region's
    write-backs leave. -/
theorem result_eq_arrAt (c : Dev nD) :
    W4 m ρ c (Proc.devRef .tc main_v6) = (dat1 (V3 m ρ) c).arrAt 5 cfg1.N := W4_arr m ρ c 5

end Cert.KernelIdeal.Whole

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LibAttn.lean ====
/-
  Layout and row lemmas for attention bodies on the extended reals, read at coordinates.

  A bias row stored as `[1, 1, 1, b]` and laid as the one row `[1, b]`; the two matrix-product records of an
  attention body (rows with rows, rows with columns) read at their free coordinates; and one row of scores turned
  into attention weights: the row's maximum from `-∞`, the exponentials of the differences, their sum, the quotients.
-/
import Idealize.ShloMosaic.Lib.Pipeline.Value
import Idealize.ShloMosaic.Lib.ValueIdx
import Idealize.ShloMosaic.Lib.ValueLayout
import Idealize.ShloMosaic.PureOps.Ideal.Laws
import proofs.«127537_j48670569398462_2_alg».proof.Proof.LibLayout

namespace Cert.LibAttn

open Idealize.ShloMosaic Idealize.ShloMosaic.ValueIdx

variable {α : Type}

/-- A `[1, 1, 1, b]` array cast to the one row `[1, b]` reads, at `(u, k)`, the operand at `(0, 0, 0, k)`. -/
theorem shapeCast_111b_1b_apply {b : ℕ} (x : (⟨4, ![1, 1, 1, b]⟩ : Shape).Idx → α)
    (h : (⟨4, ![1, 1, 1, b]⟩ : Shape).ShapeCasts ⟨2, ![1, b]⟩) (u : Fin 1) (k : Fin b) :
    shapeCast ⟨2, ![1, b]⟩ x h (ix2 u k) = x (ix4 (0 : Fin 1) (0 : Fin 1) (0 : Fin 1) k) :=
  shapeCast_apply x h _ _ (by
    have hu : u.val = 0 := by omega
    rw [Shape.rowMajor_val_four, Shape.rowMajor_val_two]
    show ((0 * 1 + 0) * 1 + 0) * b + k.val = u.val * b + k.val
    rw [hu])

/-! ## One row of scores turned into attention weights -/

/-- The row's maximum, folded from `-∞`. -/
noncomputable def rowMax {T : ℕ} (sc : Fin T → EReal) : EReal :=
  (Finset.univ : Finset (Fin T)).fold max (Ideal.ofBits .f32 0xFF800000#32) sc

/-- The exponential of a score's distance below the row's maximum. -/
noncomputable def rowExp {T : ℕ} (sc : Fin T → EReal) (t : Fin T) : EReal := Ideal.exp (sc t - rowMax sc)

/-- A score's weight: its exponential over the sum of the row's exponentials. -/
noncomputable def rowWeight {T : ℕ} (sc : Fin T → EReal) (t : Fin T) : EReal :=
  Ideal.div (rowExp sc t) (∑ u : Fin T, rowExp sc u)

/-- The weighted sum of a column of values by a row's weights. -/
noncomputable def rowAttn {T : ℕ} (sc vals : Fin T → EReal) : EReal := ∑ t : Fin T, rowWeight sc t * vals t

section Kernel

variable {a T : ℕ} (S : FVec Ideal ⟨2, ![a, T]⟩ .f32)
  (hred : (⟨2, ![a, T]⟩ : Shape).Reduces [1] ⟨1, ![a]⟩) (hφ : FKind.Formats FTy.f32)
  (hm : (0xFF800000#32 : BitVec 32) = 0xFF800000#32) (hz : (0x00000000#32 : BitVec 32) = 0x00000000#32)
  (hc : (⟨1, ![a]⟩ : Shape).ShapeCasts ⟨2, ![a, 1]⟩) (hb : (⟨2, ![a, 1]⟩ : Shape).Broadcasts ⟨2, ![a, T]⟩)

/-- A vector `[a]` stood up as a column and repeated along the rows of `[a, T]` reads, at `(s, t)`, its entry `s`. -/
theorem column_apply (v : (⟨1, ![a]⟩ : Shape).Idx → EReal) (s : Fin a) (t : Fin T) :
    broadcastTo ⟨2, ![a, T]⟩ (shapeCast ⟨2, ![a, 1]⟩ v hc) hb (ix2 s t) = v (ix1 s) :=
  (Cert.LibLayout.broadcastTo_a1_ab_apply _ hb s t).trans (Cert.LibLayout.shapeCast_a_a1_apply v hc s 0)

/-- The matrix of exponentials of each score's distance below its row's maximum, as a vector body computes it:
    the maximum over the second axis from `-∞`, stood up as a column, repeated along the rows, subtracted, exponentiated. -/
noncomputable def expShift : FVec Ideal ⟨2, ![a, T]⟩ .f32 :=
  exp (subf S (broadcastTo ⟨2, ![a, T]⟩ (shapeCast ⟨2, ![a, 1]⟩
    (multiReduction .maximumf [1] ⟨1, ![a]⟩ S 0xFF800000#32 hred hφ hm) hc) hb))

theorem expShift_apply (s : Fin a) (t : Fin T) :
    expShift S hred hφ hm hc hb (ix2 s t) = rowExp (fun u => S (ix2 s u)) t := by
  unfold expShift rowExp rowMax
  show Ideal.exp (S (ix2 s t) - broadcastTo ⟨2, ![a, T]⟩ (shapeCast ⟨2, ![a, 1]⟩
    (multiReduction .maximumf [1] ⟨1, ![a]⟩ S 0xFF800000#32 hred hφ hm) hc) hb (ix2 s t)) = _
  rw [column_apply hc hb _ s t, Cert.LibLayout.max_rows_apply S hred hφ hm s]

/-- The matrix of weights: each exponential over its row's sum (the sum over the second axis from zero, stood up as a
    column and repeated along the rows). -/
noncomputable def weights : FVec Ideal ⟨2, ![a, T]⟩ .f32 :=
  divf (expShift S hred hφ hm hc hb) (broadcastTo ⟨2, ![a, T]⟩ (shapeCast ⟨2, ![a, 1]⟩
    (multiReduction .add [1] ⟨1, ![a]⟩ (expShift S hred hφ hm hc hb) 0x00000000#32 hred hφ hz) hc) hb)

theorem weights_apply (s : Fin a) (t : Fin T) :
    weights S hred hφ hm hz hc hb (ix2 s t) = rowWeight (fun u => S (ix2 s u)) t := by
  unfold weights rowWeight
  show Ideal.div (expShift S hred hφ hm hc hb (ix2 s t)) (broadcastTo ⟨2, ![a, T]⟩ (shapeCast ⟨2, ![a, 1]⟩
    (multiReduction .add [1] ⟨1, ![a]⟩ (expShift S hred hφ hm hc hb) 0x00000000#32 hred hφ hz) hc) hb (ix2 s t)) = _
  rw [column_apply hc hb _ s t, Cert.LibLayout.sum_rows_apply _ hred hφ hz s, expShift_apply]
  exact congrArg _ (Finset.sum_congr rfl fun u _ => expShift_apply S hred hφ hm hc hb s u)

end Kernel

/-! ## The host's row maximum of a rank-3 array -/

/-- A host reduction with a maximum body over the last axis of a `[B, a, T]` array of extended reals, read at
    `(b, s)`: the fold of `max` from the initial value over the row `(b, s, ·)`. -/
theorem hostMax_rows3 {B a T : ℕ} (x : FVec Ideal ⟨3, ![B, a, T]⟩ .f32) {u : Shape} (init : u.Idx → EReal)
    (h' : (⟨3, ![B, a, T]⟩ : Shape).ReducesTo [2] ⟨2, ![B, a]⟩) (h : (⟨3, ![B, a, T]⟩ : Shape).Reduces [2] ⟨2, ![B, a]⟩)
    (hu : 0 < u.numel) (b : Fin B) (s : Fin a) :
    Host.reduce FloatOps.maximumf x init h' hu (ix2 b s)
      = (Finset.univ : Finset (Fin T)).fold max (init (Shape.Idx.first hu)) (fun w => x (ix3 b s w)) := by
  rw [Host.reduce_eq_fold_single FloatOps.maximumf x init h' h hu]
  refine congrArg (fun f => Finset.fold max (init (Shape.Idx.first hu)) f (Finset.univ : Finset (Fin T))) (funext fun w => ?_)
  exact congrArg x (funext fun ax => Fin.ext (by match ax with | ⟨0, _⟩ => rfl | ⟨1, _⟩ => rfl | ⟨2, _⟩ => rfl))

end Cert.LibAttn
-- ==== Proof.Body.lean ====
/-
  The two kernel bodies read at an entry, on the extended reals.

  The position body: entry (s, u) of its one store is the product of row s of the scaled and biased queries with
  row u of the position table.  The attention body: entry (s, v) of its one store is the weighted sum of column v of
  the values by the weights of row s of the scores, a score being the product of the scaled and biased query row with
  a key row plus the shifted position score it loads.  A change of float format is the identity here, and a matrix
  product into the zero accumulator is the plain sum over the contracted coordinate.
-/
import proofs.«127537_j48670569398462_2_alg».proof.Proof.Gen.KernelIdeal.Skeleton
import proofs.«127537_j48670569398462_2_alg».proof.Proof.LibLayout
import proofs.«127537_j48670569398462_2_alg».proof.Proof.LibAttn
import Idealize.ShloMosaic.Lib.ValueLayout

noncomputable section

namespace Cert.KernelIdeal.Body

open Cert.KernelIdeal Cert.KernelIdeal.Gen Idealize.ShloMosaic Idealize.ShloMosaic.ValueIdx Cert.LibLayout Cert.LibAttn

variable [Facts₀]

/-! ## The two product records' free coordinates -/

theorem rr_l0 (j : S1024x1024.Idx) (q : dot_S1024x64_S1024x64_S1024x1024_1_1_0_0_n_n.contr.Idx) :
    (dot_S1024x64_S1024x64_S1024x1024_1_1_0_0_n_n.lhsIdx j q 0).val = (j 0).val := by
  unfold DotDims.lhsIdx
  rw [dif_neg (show ¬(0 : Fin S1024x64.rank) ∈ dot_S1024x64_S1024x64_S1024x1024_1_1_0_0_n_n.lhsBatch from List.not_mem_nil), dif_pos (show (0 : Fin S1024x64.rank) ∈ dot_S1024x64_S1024x64_S1024x1024_1_1_0_0_n_n.lhsNonContracting from List.mem_singleton.mpr rfl)]
  rfl

theorem rr_r0 (j : S1024x1024.Idx) (q : dot_S1024x64_S1024x64_S1024x1024_1_1_0_0_n_n.contr.Idx) :
    (dot_S1024x64_S1024x64_S1024x1024_1_1_0_0_n_n.rhsIdx j q 0).val = (j 1).val := by
  unfold DotDims.rhsIdx
  rw [dif_neg (show ¬(0 : Fin S1024x64.rank) ∈ dot_S1024x64_S1024x64_S1024x1024_1_1_0_0_n_n.rhsBatch from List.not_mem_nil), dif_pos (show (0 : Fin S1024x64.rank) ∈ dot_S1024x64_S1024x64_S1024x1024_1_1_0_0_n_n.rhsNonContracting from List.mem_singleton.mpr rfl)]
  rfl

theorem rc_l0 (j : S1024x64.Idx) (q : dot_S1024x1024_S1024x64_S1024x64_1_0_0_1_n_n.contr.Idx) :
    (dot_S1024x1024_S1024x64_S1024x64_1_0_0_1_n_n.lhsIdx j q 0).val = (j 0).val := by
  unfold DotDims.lhsIdx
  rw [dif_neg (show ¬(0 : Fin S1024x1024.rank) ∈ dot_S1024x1024_S1024x64_S1024x64_1_0_0_1_n_n.lhsBatch from List.not_mem_nil), dif_pos (show (0 : Fin S1024x1024.rank) ∈ dot_S1024x1024_S1024x64_S1024x64_1_0_0_1_n_n.lhsNonContracting from List.mem_singleton.mpr rfl)]
  rfl

theorem rc_r1 (j : S1024x64.Idx) (q : dot_S1024x1024_S1024x64_S1024x64_1_0_0_1_n_n.contr.Idx) :
    (dot_S1024x1024_S1024x64_S1024x64_1_0_0_1_n_n.rhsIdx j q 1).val = (j 1).val := by
  unfold DotDims.rhsIdx
  rw [dif_neg (show ¬(1 : Fin S1024x64.rank) ∈ dot_S1024x1024_S1024x64_S1024x64_1_0_0_1_n_n.rhsBatch from List.not_mem_nil), dif_pos (show (1 : Fin S1024x64.rank) ∈ dot_S1024x1024_S1024x64_S1024x64_1_0_0_1_n_n.rhsNonContracting from List.mem_singleton.mpr rfl)]
  rfl

/-! ## The scaled and biased query rows against the rows of a second operand -/

/-- The product both bodies start with: the query block scaled by the literal and shifted by the bias row, times the
    rows of a second block, into the zero accumulator. -/
def qkMat (x0 : Vec Ideal S1x1024x64 .f32) (x2 : Vec Ideal S1x1x1x64 .f32) (x1 : Vec Ideal S1x1024x64 .f32) :
    FVec Ideal S1024x1024 .f32 :=
  matmul dot_S1024x64_S1024x64_S1024x1024_1_1_0_0_n_n none
    (truncf .bf16 (addf (mulf (shapeCast S1024x64 x0 shapeCasts_S1x1024x64_S1024x64)
        (broadcast S1024x64 (FloatOps.ofBits .f32 0x3E000000#32)))
      (broadcastTo S1024x64 (shapeCast S1x64 x2 shapeCasts_S1x1x1x64_S1x64) broadcasts_S1x64_S1024x64)) bitsLt_bf16_f32)
    (truncf .bf16 (shapeCast S1024x64 x1 shapeCasts_S1x1024x64_S1024x64) bitsLt_bf16_f32)
    (constant S1024x1024 .f32 0x00000000#32)

/-- Entry (s, u) of that product: the sum over the head dimension of (query · scale + bias) · second operand. -/
theorem qkMat_apply (x0 : Vec Ideal S1x1024x64 .f32) (x2 : Vec Ideal S1x1x1x64 .f32) (x1 : Vec Ideal S1x1024x64 .f32)
    (s u : Fin 1024) :
    qkMat x0 x2 x1 (ix2 s u) = ∑ k : Fin 64, (x0 (ix3 (0 : Fin 1) s k) * Ideal.ofBits .f32 0x3E000000#32
      + x2 (ix4 (0 : Fin 1) (0 : Fin 1) (0 : Fin 1) k)) * x1 (ix3 (0 : Fin 1) u k) := by
  unfold qkMat
  refine (matmul_rows_rows_apply dot_S1024x64_S1024x64_S1024x1024_1_1_0_0_n_n rfl rfl rfl rfl rr_l0 rr_r0 none _ _ s u).trans ?_
  refine Finset.sum_congr rfl fun k _ => ?_
  have e0 := shapeCast_1ab_ab_apply x0 shapeCasts_S1x1024x64_S1024x64 s k
  have e1 := shapeCast_1ab_ab_apply x1 shapeCasts_S1x1024x64_S1024x64 u k
  have e2 := (broadcastTo_1b_ab_apply (shapeCast S1x64 x2 shapeCasts_S1x1x1x64_S1x64) broadcasts_S1x64_S1024x64 s k).trans
    (shapeCast_111b_1b_apply x2 shapeCasts_S1x1x1x64_S1x64 0 k)
  show (shapeCast S1024x64 x0 shapeCasts_S1x1024x64_S1024x64 (ix2 s k) * Ideal.ofBits .f32 0x3E000000#32
      + broadcastTo S1024x64 (shapeCast S1x64 x2 shapeCasts_S1x1x1x64_S1x64) broadcasts_S1x64_S1024x64 (ix2 s k))
      * shapeCast S1024x64 x1 shapeCasts_S1x1024x64_S1024x64 (ix2 u k) = _
  rw [e0, e1, e2]

/-! ## The position body -/

theorem pos_pay_eq (x0 : Vec Ideal S1x1024x64 .f32) (x2 : Vec Ideal S1x1x1x64 .f32) (x1 : Vec Ideal S1x1024x64 .f32) :
    k0_pay1 x0 x2 x1 = shapeCast S1x1024x1024 (truncf .bf16 (qkMat x0 x2 x1) bitsLt_bf16_f32) shapeCasts_S1024x1024_S1x1024x1024 := rfl

/-- Entry (0, s, u) of the position body's store. -/
theorem pos_entry (x0 : Vec Ideal S1x1024x64 .f32) (x2 : Vec Ideal S1x1x1x64 .f32) (x1 : Vec Ideal S1x1024x64 .f32)
    (z : Fin 1) (s u : Fin 1024) :
    k0_pay1 x0 x2 x1 (ix3 z s u) = ∑ k : Fin 64, (x0 (ix3 (0 : Fin 1) s k) * Ideal.ofBits .f32 0x3E000000#32
      + x2 (ix4 (0 : Fin 1) (0 : Fin 1) (0 : Fin 1) k)) * x1 (ix3 (0 : Fin 1) u k) := by
  rw [pos_pay_eq]
  refine (shapeCast_ab_1ab_apply _ _ z s u).trans ?_
  exact qkMat_apply x0 x2 x1 s u

/-! ## The attention body -/

/-- The scores: the content product plus the position scores loaded. -/
def scoreMat (x0 : Vec Ideal S1x1024x64 .f32) (x2 : Vec Ideal S1x1x1x64 .f32) (x1 : Vec Ideal S1x1024x64 .f32)
    (x3 : Vec Ideal S1x1024x1024 .bf16) : FVec Ideal S1024x1024 .f32 :=
  addf (qkMat x0 x2 x1) (extf .f32 (shapeCast S1024x1024 x3 shapeCasts_S1x1024x1024_S1024x1024) bitsLt_bf16_f32)

theorem scoreMat_apply (x0 : Vec Ideal S1x1024x64 .f32) (x2 : Vec Ideal S1x1x1x64 .f32) (x1 : Vec Ideal S1x1024x64 .f32)
    (x3 : Vec Ideal S1x1024x1024 .bf16) (s u : Fin 1024) :
    scoreMat x0 x2 x1 x3 (ix2 s u) = (∑ k : Fin 64, (x0 (ix3 (0 : Fin 1) s k) * Ideal.ofBits .f32 0x3E000000#32
      + x2 (ix4 (0 : Fin 1) (0 : Fin 1) (0 : Fin 1) k)) * x1 (ix3 (0 : Fin 1) u k)) + (x3 (ix3 (0 : Fin 1) s u) : EReal) := by
  unfold scoreMat
  show qkMat x0 x2 x1 (ix2 s u) + shapeCast S1024x1024 x3 shapeCasts_S1x1024x1024_S1024x1024 (ix2 s u) = _
  rw [qkMat_apply, shapeCast_1ab_ab_apply x3 shapeCasts_S1x1024x1024_S1024x1024 s u]

theorem attn_pay_eq (x0 : Vec Ideal S1x1024x64 .f32) (x2 : Vec Ideal S1x1x1x64 .f32) (x1 : Vec Ideal S1x1024x64 .f32)
    (x3 : Vec Ideal S1x1024x1024 .bf16) (x4 : Vec Ideal S1x1024x64 .f32) :
    k1_pay1 x0 x2 x1 x3 x4 = shapeCast S1x1024x64 (matmul dot_S1024x1024_S1024x64_S1024x64_1_0_0_1_n_n none
      (truncf .bf16 (weights (scoreMat x0 x2 x1 x3) reduces_S1024x1024_S1024 (.inl rfl) rfl rfl shapeCasts_S1024_S1024x1
        broadcasts_S1024x1_S1024x1024) bitsLt_bf16_f32)
      (truncf .bf16 (shapeCast S1024x64 x4 shapeCasts_S1x1024x64_S1024x64) bitsLt_bf16_f32)
      (constant S1024x64 .f32 0x00000000#32)) shapeCasts_S1024x64_S1x1024x64 := rfl

/-- Entry (0, s, v) of the attention body's store: the values' column v weighted by row s of the scores. -/
theorem attn_entry (x0 : Vec Ideal S1x1024x64 .f32) (x2 : Vec Ideal S1x1x1x64 .f32) (x1 : Vec Ideal S1x1024x64 .f32)
    (x3 : Vec Ideal S1x1024x1024 .bf16) (x4 : Vec Ideal S1x1024x64 .f32) (z : Fin 1) (s : Fin 1024) (v : Fin 64) :
    k1_pay1 x0 x2 x1 x3 x4 (ix3 z s v)
      = rowAttn (fun u : Fin 1024 => (∑ k : Fin 64, (x0 (ix3 (0 : Fin 1) s k) * Ideal.ofBits .f32 0x3E000000#32
          + x2 (ix4 (0 : Fin 1) (0 : Fin 1) (0 : Fin 1) k)) * x1 (ix3 (0 : Fin 1) u k)) + (x3 (ix3 (0 : Fin 1) s u) : EReal))
        (fun u : Fin 1024 => x4 (ix3 (0 : Fin 1) u v)) := by
  rw [attn_pay_eq]
  refine (shapeCast_ab_1ab_apply _ _ z s v).trans ?_
  refine (matmul_rows_cols_apply dot_S1024x1024_S1024x64_S1024x64_1_0_0_1_n_n rfl rfl rfl rfl rc_l0 rc_r1 none _ _ s v).trans ?_
  unfold rowAttn
  refine Finset.sum_congr rfl fun u _ => ?_
  have ew := weights_apply (scoreMat x0 x2 x1 x3) reduces_S1024x1024_S1024 (.inl rfl) rfl rfl shapeCasts_S1024_S1024x1
    broadcasts_S1024x1_S1024x1024 s u
  have ev := shapeCast_1ab_ab_apply x4 shapeCasts_S1x1024x64_S1024x64 u v
  show weights (scoreMat x0 x2 x1 x3) reduces_S1024x1024_S1024 (.inl rfl) rfl rfl shapeCasts_S1024_S1024x1
      broadcasts_S1024x1_S1024x1024 (ix2 s u) * shapeCast S1024x64 x4 shapeCasts_S1x1024x64_S1024x64 (ix2 u v) = _
  rw [ew, ev]
  exact congrArg (fun f => rowWeight f u * x4 (ix3 (0 : Fin 1) u v)) (funext fun w => scoreMat_apply x0 x2 x1 x3 s w)

end Cert.KernelIdeal.Body

end
-- ==== Proof.Spec.lean ====
/-
  The two arrays of relative-position attention, entry by entry, on the extended reals.

  With 16 heads, batch entry b belongs to head b mod 16.  The position score (b, s, t) is the product of the query row
  (b, s), scaled by the literal and shifted by the position bias of the head, with row t of the head's position table.
  The attention output (b, s, v) weights column v of the values of entry b by the weights of the score row (b, s),
  a score being the scaled query row shifted by the content bias of the head, times a key row, plus a position score
  given as an array (the shifted one).
-/
import proofs.«127537_j48670569398462_2_alg».proof.Proof.LibAttn

noncomputable section

namespace Cert.Spec

open Idealize.ShloMosaic Idealize.ShloMosaic.ValueIdx Cert.LibAttn

/-- The head a batch entry belongs to. -/
def hd (b : Fin 64) : Fin 16 := ⟨b.val % 16, Nat.mod_lt _ (by decide)⟩

/-- The position scores as one array, from the queries, a position table of 1024 rows per head and the position bias. -/
def posArr (Q : (⟨3, ![64, 1024, 64]⟩ : Shape).Idx → EReal) (Rs : (⟨3, ![16, 1024, 64]⟩ : Shape).Idx → EReal)
    (B : (⟨4, ![1, 16, 1, 64]⟩ : Shape).Idx → EReal) : (⟨3, ![64, 1024, 1024]⟩ : Shape).Idx → EReal := fun i =>
  ∑ k : Fin 64, (Q (ix3 (i 0 : Fin 64) (i 1 : Fin 1024) k) * Ideal.ofBits .f32 0x3E000000#32
    + B (ix4 (0 : Fin 1) (hd (i 0)) (0 : Fin 1) k)) * Rs (ix3 (hd (i 0)) (i 2 : Fin 1024) k)

/-- The attention output as one array, from the queries, keys, values, the content bias and an array of position scores. -/
def attnArr (Q K Vv : (⟨3, ![64, 1024, 64]⟩ : Shape).Idx → EReal) (B : (⟨4, ![1, 16, 1, 64]⟩ : Shape).Idx → EReal)
    (P5 : (⟨3, ![64, 1024, 1024]⟩ : Shape).Idx → EReal) : (⟨3, ![64, 1024, 64]⟩ : Shape).Idx → EReal := fun i =>
  rowAttn (fun u : Fin 1024 => (∑ k : Fin 64, (Q (ix3 (i 0 : Fin 64) (i 1 : Fin 1024) k) * Ideal.ofBits .f32 0x3E000000#32
      + B (ix4 (0 : Fin 1) (hd (i 0)) (0 : Fin 1) k)) * K (ix3 (i 0 : Fin 64) u k)) + P5 (ix3 (i 0 : Fin 64) (i 1 : Fin 1024) u))
    (fun u : Fin 1024 => Vv (ix3 (i 0 : Fin 64) u (i 2 : Fin 64)))

theorem posArr_congr {Q Q' : (⟨3, ![64, 1024, 64]⟩ : Shape).Idx → EReal} {Rs Rs' : (⟨3, ![16, 1024, 64]⟩ : Shape).Idx → EReal}
    {B B' : (⟨4, ![1, 16, 1, 64]⟩ : Shape).Idx → EReal} (h0 : Q = Q') (h1 : Rs = Rs') (h2 : B = B') :
    posArr Q Rs B = posArr Q' Rs' B' := by rw [h0, h1, h2]

theorem attnArr_congr {Q Q' K K' Vv Vv' : (⟨3, ![64, 1024, 64]⟩ : Shape).Idx → EReal} {B B' : (⟨4, ![1, 16, 1, 64]⟩ : Shape).Idx → EReal}
    {P5 P5' : (⟨3, ![64, 1024, 1024]⟩ : Shape).Idx → EReal} (h0 : Q = Q') (h1 : K = K') (h2 : Vv = Vv') (h3 : B = B') (h4 : P5 = P5') :
    attnArr Q K Vv B P5 = attnArr Q' K' Vv' B' P5' := by rw [h0, h1, h2, h3, h4]

end Cert.Spec

end
-- ==== Proof.Reg0.lean ====
/-
  What the first region leaves in the position array.

  The grid has one point per batch entry b = n · 16 + h (head h, group n).  At that point the body loads query block
  b, position-table block h and bias row h, and stores block b of the output: so every entry (b, s, t) of the array
  is written exactly once, and it holds the sum over the head dimension of (query · scale + bias of head b mod 16)
  times the position table of head b mod 16 at row t.
-/
import proofs.«127537_j48670569398462_2_alg».proof.Proof.Gen.KernelIdeal.Frame
import proofs.«127537_j48670569398462_2_alg».proof.Proof.Body
import proofs.«127537_j48670569398462_2_alg».proof.Proof.Spec
import Idealize.ShloMosaic.Lib.Pipeline.Value

set_option maxRecDepth 16384

noncomputable section

namespace Cert.KernelIdeal.Reg0

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem idx_facts : ∀ t : Fin cfg0.N, win0_0.index t (0 : Fin 3) = win0_3.index t (0 : Fin 3)
    ∧ win0_0.index t (1 : Fin 3) = 0 ∧ win0_0.index t (2 : Fin 3) = 0
    ∧ win0_1.index t (0 : Fin 3) = win0_3.index t (0 : Fin 3) % 16
    ∧ win0_1.index t (1 : Fin 3) = 0 ∧ win0_1.index t (2 : Fin 3) = 0
    ∧ win0_2.index t (0 : Fin 4) = 0 ∧ win0_2.index t (1 : Fin 4) = win0_3.index t (0 : Fin 3) % 16
    ∧ win0_2.index t (2 : Fin 4) = 0 ∧ win0_2.index t (3 : Fin 4) = 0
    ∧ win0_3.index t (0 : Fin 3) < 64 ∧ win0_3.index t (1 : Fin 3) = 0 ∧ win0_3.index t (2 : Fin 3) = 0 :=
  (by decide +kernel : ∀ t : Fin grid0.N, _)

theorem idx_onto : ∀ q0 : Fin 64, ∃ t : Fin cfg0.N, win0_3.index t = ![q0.val, 0, 0] :=
  (by decide +kernel : ∀ q0 : Fin 64, ∃ t : Fin grid0.N, win0_3.index t = ![q0.val, 0, 0])

theorem flushed_eq (c : Dev nD) (t : Fin cfg0.N) :
    (dat0 V c).flushed 3 t = ((cfg0.win 3).blk t).view.read (Elt Ideal) (posArr (V c main_arg0) (V c main_v0) (V c main_arg4)) := by
  show (cfg0.win 3).cut (grid0.coords t) ((dat0 V c).after 3 t) = _
  rw [after0_3]
  unfold out0_3
  rw [View.canon_unit_zero hz3]
  simp only [View.ld_unit_zero (S := S1x1024x64) hz3, View.ld_unit_zero (S := S1x1x1x64) hz4]
  funext j
  obtain ⟨f0, f01, f02, f1, f11, f12, f20, f21, f22, f23, f3, f31, f32⟩ := idx_facts t
  obtain ⟨z, s, u, rfl⟩ : ∃ (z : Fin 1) (s : Fin 1024) (u : Fin 1024), j = ix3 z s u := ⟨j 0, j 1, j 2, eq_ix3 j⟩
  have hz : z.val = 0 := by omega
  have eo : ((cfg0.win 3).blk t).view.emb (ix3 z s u) = ix3 (⟨win0_3.index t (0 : Fin 3), f3⟩ : Fin 64) s u := by
    funext a; apply Fin.ext
    match a with
    | ⟨0, _⟩ => show win0_3.index t (0 : Fin 3) * 1 + 1 * z.val = win0_3.index t (0 : Fin 3); omega
    | ⟨1, _⟩ => show win0_3.index t (1 : Fin 3) * 1024 + 1 * s.val = s.val; omega
    | ⟨2, _⟩ => show win0_3.index t (2 : Fin 3) * 1024 + 1 * u.val = u.val; omega
  show k0_pay1 (iblk0 V c 0 t) (iblk0 V c 2 t) (iblk0 V c 1 t) (ix3 z s u)
    = posArr (V c main_arg0) (V c main_v0) (V c main_arg4) (((cfg0.win 3).blk t).view.emb (ix3 z s u))
  rw [eo]
  refine (Body.pos_entry (iblk0 V c 0 t) (iblk0 V c 2 t) (iblk0 V c 1 t) z s u).trans ?_
  unfold posArr
  refine Finset.sum_congr rfl fun k _ => ?_
  have r0 : iblk0 V c 0 t (ix3 (0 : Fin 1) s k) = V c main_arg0 (ix3 (⟨win0_3.index t (0 : Fin 3), f3⟩ : Fin 64) s k) := by
    show V c main_arg0 (((cfg0.win 0).blk t).view.emb (ix3 (0 : Fin 1) s k)) = _
    refine congrArg (V c main_arg0) (funext fun a => Fin.ext ?_)
    match a with
    | ⟨0, _⟩ => show win0_0.index t (0 : Fin 3) * 1 + 1 * 0 = win0_3.index t (0 : Fin 3); omega
    | ⟨1, _⟩ => show win0_0.index t (1 : Fin 3) * 1024 + 1 * s.val = s.val; omega
    | ⟨2, _⟩ => show win0_0.index t (2 : Fin 3) * 64 + 1 * k.val = k.val; omega
  have r1 : iblk0 V c 1 t (ix3 (0 : Fin 1) u k) = V c main_v0 (ix3 (hd ⟨win0_3.index t (0 : Fin 3), f3⟩) u k) := by
    show V c main_v0 (((cfg0.win 1).blk t).view.emb (ix3 (0 : Fin 1) u k)) = _
    refine congrArg (V c main_v0) (funext fun a => Fin.ext ?_)
    match a with
    | ⟨0, _⟩ => show win0_1.index t (0 : Fin 3) * 1 + 1 * 0 = win0_3.index t (0 : Fin 3) % 16; omega
    | ⟨1, _⟩ => show win0_1.index t (1 : Fin 3) * 1024 + 1 * u.val = u.val; omega
    | ⟨2, _⟩ => show win0_1.index t (2 : Fin 3) * 64 + 1 * k.val = k.val; omega
  have r2 : iblk0 V c 2 t (ix4 (0 : Fin 1) (0 : Fin 1) (0 : Fin 1) k)
      = V c main_arg4 (ix4 (0 : Fin 1) (hd ⟨win0_3.index t (0 : Fin 3), f3⟩) (0 : Fin 1) k) := by
    show V c main_arg4 (((cfg0.win 2).blk t).view.emb (ix4 (0 : Fin 1) (0 : Fin 1) (0 : Fin 1) k)) = _
    refine congrArg (V c main_arg4) (funext fun a => Fin.ext ?_)
    match a with
    | ⟨0, _⟩ => show win0_2.index t (0 : Fin 4) * 1 + 1 * 0 = 0; omega
    | ⟨1, _⟩ => show win0_2.index t (1 : Fin 4) * 1 + 1 * 0 = win0_3.index t (0 : Fin 3) % 16; omega
    | ⟨2, _⟩ => show win0_2.index t (2 : Fin 4) * 1 + 1 * 0 = 0; omega
    | ⟨3, _⟩ => show win0_2.index t (3 : Fin 4) * 64 + 1 * k.val = k.val; omega
  rw [r0, r1, r2]

/-- An index of the array is in point `t`'s block iff each coordinate is in the block's range on its axis. -/
theorem mem_blk (t : Fin cfg0.N) (i : S64x1024x1024.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v1).slice (win0_3.rect t)).set ↔ _
  rw [View.set_slice_whole, Rect.mem_set_unit]
  exact Iff.rfl

theorem cover (i : S64x1024x1024.Idx) : ∃ t : Fin cfg0.N, (cfg0.win 3).flush t = true ∧ i ∈ ((cfg0.win 3).blk t).view.set := by
  have hi0 : (i 0).val < 64 := (i 0).isLt
  have hi1 : (i 1).val < 1024 := (i 1).isLt
  have hi2 : (i 2).val < 1024 := (i 2).isLt
  obtain ⟨t, ht⟩ := idx_onto ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

/-- The position array after the first region: one function of the arrays the region found. -/
theorem final (c : Dev nD) :
    (dat0 V c).arrAt 3 cfg0.N = posArr (V c main_arg0) (V c main_v0) (V c main_arg4) :=
  (dat0 V c).arrAt_eq_of_cover 3 _ (fun t _ => flushed_eq V c t) cover

end Cert.KernelIdeal.Reg0
end
-- ==== Proof.Reg1.lean ====
/-
  What the second region leaves in the result array.

  The grid again has one point per batch entry b = n · 16 + h.  The body loads query block b, key block b, bias row h,
  block b of the shifted position scores and value block b, and stores block b of the result: entry (b, s, v) is
  the weighted sum of the values' column v by the weights of the score row s, a score being the scaled and biased
  query row times a key row plus the shifted position score.
-/
import proofs.«127537_j48670569398462_2_alg».proof.Proof.Gen.KernelIdeal.Frame
import proofs.«127537_j48670569398462_2_alg».proof.Proof.Body
import proofs.«127537_j48670569398462_2_alg».proof.Proof.Reg0
import proofs.«127537_j48670569398462_2_alg».proof.Proof.Spec
import Idealize.ShloMosaic.Lib.Pipeline.Value

set_option maxRecDepth 16384

noncomputable section

namespace Cert.KernelIdeal.Reg1

open Cert.KernelIdeal Cert.KernelIdeal.Gen Idealize.ShloMosaic Idealize.ShloMosaic.TcCoe Idealize.SL.Sem
open Idealize.ShloMosaic.ValueIdx Cert.LibAttn Cert.KernelIdeal.Reg0 Cert.Spec
open Idealize.ShloMosaic.Pipeline (Dat)

variable (V : (c : Dev nD) → (b : Ref sig .tc) → Buf (Elt Ideal) ((c : Thread nD τ).loc b))

theorem idx_facts : ∀ t : Fin cfg1.N, win1_0.index t (0 : Fin 3) = win1_5.index t (0 : Fin 3)
    ∧ win1_0.index t (1 : Fin 3) = 0 ∧ win1_0.index t (2 : Fin 3) = 0
    ∧ win1_1.index t (0 : Fin 3) = win1_5.index t (0 : Fin 3)
    ∧ win1_1.index t (1 : Fin 3) = 0 ∧ win1_1.index t (2 : Fin 3) = 0
    ∧ win1_2.index t (0 : Fin 4) = 0 ∧ win1_2.index t (1 : Fin 4) = win1_5.index t (0 : Fin 3) % 16
    ∧ win1_2.index t (2 : Fin 4) = 0 ∧ win1_2.index t (3 : Fin 4) = 0
    ∧ win1_3.index t (0 : Fin 3) = win1_5.index t (0 : Fin 3)
    ∧ win1_3.index t (1 : Fin 3) = 0 ∧ win1_3.index t (2 : Fin 3) = 0
    ∧ win1_4.index t (0 : Fin 3) = win1_5.index t (0 : Fin 3)
    ∧ win1_4.index t (1 : Fin 3) = 0 ∧ win1_4.index t (2 : Fin 3) = 0
    ∧ win1_5.index t (0 : Fin 3) < 64 ∧ win1_5.index t (1 : Fin 3) = 0 ∧ win1_5.index t (2 : Fin 3) = 0 :=
  (by decide +kernel : ∀ t : Fin grid1.N, _)

theorem idx_onto : ∀ q0 : Fin 64, ∃ t : Fin cfg1.N, win1_5.index t = ![q0.val, 0, 0] :=
  (by decide +kernel : ∀ q0 : Fin 64, ∃ t : Fin grid1.N, win1_5.index t = ![q0.val, 0, 0])

/-- What point `t` writes back is block `t` of the attention array of the arrays the region found. -/
theorem flushed_eq (c : Dev nD) (t : Fin cfg1.N) :
    (dat1 V c).flushed 5 t = ((cfg1.win 5).blk t).view.read (Elt Ideal)
      (attnArr (V c main_arg0) (V c main_arg1) (V c main_arg2) (V c main_arg3) (V c main_v5)) := by
  show (cfg1.win 5).cut (grid1.coords t) ((dat1 V c).after 5 t) = _
  rw [after1_5]
  unfold out1_5
  rw [View.canon_unit_zero hz3]
  simp only [View.ld_unit_zero (S := S1x1024x64) hz3, View.ld_unit_zero (S := S1x1x1x64) hz4, View.ld_unit_zero (S := S1x1024x1024) hz3]
  funext j
  obtain ⟨f0, f01, f02, f1, f11, f12, f20, f21, f22, f23, f3, f31, f32, f4, f41, f42, f5, f51, f52⟩ := idx_facts t
  obtain ⟨z, s, v, rfl⟩ : ∃ (z : Fin 1) (s : Fin 1024) (v : Fin 64), j = ix3 z s v := ⟨j 0, j 1, j 2, eq_ix3 j⟩
  have hz : z.val = 0 := by omega
  have eo : ((cfg1.win 5).blk t).view.emb (ix3 z s v) = ix3 (⟨win1_5.index t (0 : Fin 3), f5⟩ : Fin 64) s v := by
    funext a; apply Fin.ext
    match a with
    | ⟨0, _⟩ => show win1_5.index t (0 : Fin 3) * 1 + 1 * z.val = win1_5.index t (0 : Fin 3); omega
    | ⟨1, _⟩ => show win1_5.index t (1 : Fin 3) * 1024 + 1 * s.val = s.val; omega
    | ⟨2, _⟩ => show win1_5.index t (2 : Fin 3) * 64 + 1 * v.val = v.val; omega
  show k1_pay1 (iblk1 V c 0 t) (iblk1 V c 2 t) (iblk1 V c 1 t) (iblk1 V c 3 t) (iblk1 V c 4 t) (ix3 z s v)
    = attnArr (V c main_arg0) (V c main_arg1) (V c main_arg2) (V c main_arg3) (V c main_v5) (((cfg1.win 5).blk t).view.emb (ix3 z s v))
  rw [eo]
  refine (Body.attn_entry (iblk1 V c 0 t) (iblk1 V c 2 t) (iblk1 V c 1 t) (iblk1 V c 3 t) (iblk1 V c 4 t) z s v).trans ?_
  unfold attnArr
  have r0 : ∀ k : Fin 64, iblk1 V c 0 t (ix3 (0 : Fin 1) s k) = V c main_arg0 (ix3 (⟨win1_5.index t (0 : Fin 3), f5⟩ : Fin 64) s k) := fun k => by
    show V c main_arg0 (((cfg1.win 0).blk t).view.emb (ix3 (0 : Fin 1) s k)) = _
    refine congrArg (V c main_arg0) (funext fun a => Fin.ext ?_)
    match a with
    | ⟨0, _⟩ => show win1_0.index t (0 : Fin 3) * 1 + 1 * 0 = win1_5.index t (0 : Fin 3); omega
    | ⟨1, _⟩ => show win1_0.index t (1 : Fin 3) * 1024 + 1 * s.val = s.val; omega
    | ⟨2, _⟩ => show win1_0.index t (2 : Fin 3) * 64 + 1 * k.val = k.val; omega
  have r1 : ∀ (u : Fin 1024) (k : Fin 64), iblk1 V c 1 t (ix3 (0 : Fin 1) u k) = V c main_arg1 (ix3 (⟨win1_5.index t (0 : Fin 3), f5⟩ : Fin 64) u k) := fun u k => by
    show V c main_arg1 (((cfg1.win 1).blk t).view.emb (ix3 (0 : Fin 1) u k)) = _
    refine congrArg (V c main_arg1) (funext fun a => Fin.ext ?_)
    match a with
    | ⟨0, _⟩ => show win1_1.index t (0 : Fin 3) * 1 + 1 * 0 = win1_5.index t (0 : Fin 3); omega
    | ⟨1, _⟩ => show win1_1.index t (1 : Fin 3) * 1024 + 1 * u.val = u.val; omega
    | ⟨2, _⟩ => show win1_1.index t (2 : Fin 3) * 64 + 1 * k.val = k.val; omega
  have r2 : ∀ k : Fin 64, iblk1 V c 2 t (ix4 (0 : Fin 1) (0 : Fin 1) (0 : Fin 1) k)
      = V c main_arg3 (ix4 (0 : Fin 1) (hd ⟨win1_5.index t (0 : Fin 3), f5⟩) (0 : Fin 1) k) := fun k => by
    show V c main_arg3 (((cfg1.win 2).blk t).view.emb (ix4 (0 : Fin 1) (0 : Fin 1) (0 : Fin 1) k)) = _
    refine congrArg (V c main_arg3) (funext fun a => Fin.ext ?_)
    match a with
    | ⟨0, _⟩ => show win1_2.index t (0 : Fin 4) * 1 + 1 * 0 = 0; omega
    | ⟨1, _⟩ => show win1_2.index t (1 : Fin 4) * 1 + 1 * 0 = win1_5.index t (0 : Fin 3) % 16; omega
    | ⟨2, _⟩ => show win1_2.index t (2 : Fin 4) * 1 + 1 * 0 = 0; omega
    | ⟨3, _⟩ => show win1_2.index t (3 : Fin 4) * 64 + 1 * k.val = k.val; omega
  have r3 : ∀ u : Fin 1024, (iblk1 V c 3 t (ix3 (0 : Fin 1) s u) : EReal) = V c main_v5 (ix3 (⟨win1_5.index t (0 : Fin 3), f5⟩ : Fin 64) s u) := fun u => by
    show V c main_v5 (((cfg1.win 3).blk t).view.emb (ix3 (0 : Fin 1) s u)) = _
    refine congrArg (V c main_v5) (funext fun a => Fin.ext ?_)
    match a with
    | ⟨0, _⟩ => show win1_3.index t (0 : Fin 3) * 1 + 1 * 0 = win1_5.index t (0 : Fin 3); omega
    | ⟨1, _⟩ => show win1_3.index t (1 : Fin 3) * 1024 + 1 * s.val = s.val; omega
    | ⟨2, _⟩ => show win1_3.index t (2 : Fin 3) * 1024 + 1 * u.val = u.val; omega
  have r4 : ∀ u : Fin 1024, iblk1 V c 4 t (ix3 (0 : Fin 1) u v) = V c main_arg2 (ix3 (⟨win1_5.index t (0 : Fin 3), f5⟩ : Fin 64) u v) := fun u => by
    show V c main_arg2 (((cfg1.win 4).blk t).view.emb (ix3 (0 : Fin 1) u v)) = _
    refine congrArg (V c main_arg2) (funext fun a => Fin.ext ?_)
    match a with
    | ⟨0, _⟩ => show win1_4.index t (0 : Fin 3) * 1 + 1 * 0 = win1_5.index t (0 : Fin 3); omega
    | ⟨1, _⟩ => show win1_4.index t (1 : Fin 3) * 1024 + 1 * u.val = u.val; omega
    | ⟨2, _⟩ => show win1_4.index t (2 : Fin 3) * 64 + 1 * v.val = v.val; omega
  simp only [r0, r1, r2, r3, r4]

/-- An index of the array is in point `t`'s block iff each coordinate is in the block's range on its axis. -/
theorem mem_blk (t : Fin cfg1.N) (i : S64x1024x64.Idx) :
    i ∈ ((cfg1.win 5).blk t).view.set ↔ ∀ a : Fin 3, win1_5.index t a * S1x1024x64.size a ≤ (i a).val ∧ (i a).val < win1_5.index t a * S1x1024x64.size a + S1x1024x64.size a := by
  show i ∈ ((View.whole main_v6).slice (win1_5.rect t)).set ↔ _
  rw [View.set_slice_whole, Rect.mem_set_unit]
  exact Iff.rfl

theorem cover (i : S64x1024x64.Idx) : ∃ t : Fin cfg1.N, (cfg1.win 5).flush t = true ∧ i ∈ ((cfg1.win 5).blk t).view.set := by
  have hi0 : (i 0).val < 64 := (i 0).isLt
  have hi1 : (i 1).val < 1024 := (i 1).isLt
  have hi2 : (i 2).val < 64 := (i 2).isLt
  obtain ⟨t, ht⟩ := idx_onto ⟨(i 0).val, hi0⟩
  have q0 : win1_5.index t (0 : Fin 3) = (i 0).val := congrFun ht 0
  have q1 : win1_5.index t (1 : Fin 3) = 0 := congrFun ht 1
  have q2 : win1_5.index t (2 : Fin 3) = 0 := congrFun ht 2
  refine ⟨t, flush1_5 t, ?_⟩
  rw [mem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 1024 ≤ (i 1).val ∧ (i 1).val < win1_5.index t (1 : Fin 3) * 1024 + 1024; omega
  | ⟨2, _⟩ => show win1_5.index t (2 : Fin 3) * 64 ≤ (i 2).val ∧ (i 2).val < win1_5.index t (2 : Fin 3) * 64 + 64; omega

/-- The result array after the second region: one function of the arrays the region found. -/
theorem final (c : Dev nD) :
    (dat1 V c).arrAt 5 cfg1.N = attnArr (V c main_arg0) (V c main_arg1) (V c main_arg2) (V c main_arg3) (V c main_v5) :=
  (dat1 V c).arrAt_eq_of_cover 5 _ (fun t _ => flushed_eq V c t) cover

end Cert.KernelIdeal.Reg1

end
-- ==== Proof.Between.lean ====
/-
  The buffer contents the two regions are entered with.

  Before the first region the host cuts the first 1024 rows of every head out of the position table; no other
  buffer changes.  Between the regions the host pads the position scores with a zero column in front, re-lays the
  [64, 1024, 1025] array as [64, 1025, 1024] and drops its first row: the relative shift.  The argument arrays are
  written by nothing, so each region finds them as launched.
-/
import proofs.«127537_j48670569398462_2_alg».proof.Proof.Gen.KernelIdeal.Frame
import Idealize.ShloMosaic.Lib.StableHlo.Run
import Idealize.ShloMosaic.PureOps.Ideal.Laws

set_option maxRecDepth 16384

noncomputable section

namespace Cert.KernelIdeal.Between

open Cert.KernelIdeal Cert.KernelIdeal.Gen Idealize.ShloMosaic Idealize.ShloMosaic.TcCoe Idealize.ShloMosaic.Tactic
open Idealize.SL.Sem Idealize.ShloMosaic.StableHlo

variable (m : (ℓ : Loc nD τ sig) → Buf (Elt Ideal) ℓ) (ρ : Dev nD → PrngReg)

/-! ## The first region's entry -/

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W1_main_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The cut of the position table the first region reads. -/
theorem W1_main_v0 (c : Dev nD) :
    (W1 m ρ c (Proc.devRef .tc main_v0) : S16x1024x64.Idx → EReal)
      = extractStridedSlice S16x1024x64 ![0, 0, 0] (m ((c : Thread nD τ).loc main_arg5)) slices_S16x2048x64_S16x1024x64_0_0_0 := by
  dsimp only [W1, hostOps0]
  after_results

/-! ## The second region's entry -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The shifted position scores the second region reads, from what the first region left in the position array. -/
theorem W3_main_v5 (c : Dev nD) :
    (W3 m ρ c (Proc.devRef .tc main_v5) : S64x1024x1024.Idx → EReal)
      = extractStridedSlice S64x1024x1024 ![0, 1, 0]
          (shapeCast S64x1025x1024
            (concatenate S64x1024x1025 2
              [⟨S64x1024x1, broadcastInDim S64x1024x1 ![] bcast_S_S64x1024x1 (constant (F := Ideal) S_ .bf16 0x0000#16)⟩,
               ⟨S64x1024x1024, (dat0 (V1 m ρ) c).arrAt 3 cfg0.N⟩]
              concatenates_S64x1024x1_S64x1024x1024_S64x1024x1025_d2)
            shapeCasts_S64x1024x1025_S64x1025x1024)
          slices_S64x1025x1024_S64x1024x1024_0_1_0 := by
  rw [← W2_arr m ρ c 3]
  dsimp only [W3, hostOps1]
  after_results
  rfl

end Cert.KernelIdeal.Between

end
-- ==== Proof.RefSide.lean ====
/-
  The reference's result, entry by entry, is the attention array of the specification.

  The reference regroups the batch axis as 4 groups of 16 heads to add the two bias rows and regroups it back, so a
  biased query entry (b, s, k) is the scaled query plus the bias of head b mod 16; it repeats the cut position table
  4 times along the batch axis, so entry (b, t, k) of the repeated table is the table of head b mod 16.  Its two
  score products, its softmax (the maximum from -∞ joined once more with -∞, which changes nothing; the sum started
  from zero) and its last product are read one operation at a time.
-/
import proofs.«127537_j48670569398462_2_alg».proof.Proof.Gen.ReferenceIdeal.Read
import proofs.«127537_j48670569398462_2_alg».proof.Proof.Spec
import Idealize.ShloMosaic.Lib.ValueIdxRank6

noncomputable section

namespace Cert.ReferenceIdeal.RefValue

open Cert.ReferenceIdeal Cert.ReferenceIdeal.Gen Cert.ReferenceIdeal.Read
open Idealize.ShloMosaic Idealize.ShloMosaic.ValueIdx Cert.LibAttn Cert.Spec

/-- The group a batch entry belongs to. -/
def nq (b : Fin 64) : Fin 4 := ⟨b.val / 16, by have := b.isLt; omega⟩

/-- Index (n, h, 0, t, 0, k) of the repeated position table before its batch axes are merged. -/
def j6 (n : Fin 4) (h : Fin 16) (t : Fin 1024) (k : Fin 64) : S4x16x1x1024x1x64.Idx := fun a => match a with
  | ⟨0, _⟩ => ⟨n.val, n.isLt⟩
  | ⟨1, _⟩ => ⟨h.val, h.isLt⟩
  | ⟨2, _⟩ => ⟨0, Nat.one_pos⟩
  | ⟨3, _⟩ => ⟨t.val, t.isLt⟩
  | ⟨4, _⟩ => ⟨0, Nat.one_pos⟩
  | ⟨5, _⟩ => ⟨k.val, k.isLt⟩

theorem ninf_bot : Ideal.ofBits .f32 0xFF800000#32 = (⊥ : EReal) := by simp [Ideal.ofBits, Ideal.ieee]

variable (x0 x1 x2 : (⟨S64x1024x64, .f32⟩ : BufTy).Contents (Elt Ideal))
  (x3 x4 : (⟨S1x16x1x64, .f32⟩ : BufTy).Contents (Elt Ideal)) (x5 : (⟨S16x2048x64, .f32⟩ : BufTy).Contents (Elt Ideal))

/-! ## The biased queries and the repeated position table -/

/-- The scaled queries regrouped as [4, 16, 1024, 64]. -/
theorem v2_entry (b : Fin 64) (s : Fin 1024) (k : Fin 64) :
    val_main_v2 (F := Ideal) x0 (ix4 (nq b) (hd b) s k) = x0 (ix3 b s k) * Ideal.ofBits .f32 0x3E000000#32 := by
  unfold val_main_v2
  refine (shapeCast_apply _ _ (ix4 (nq b) (hd b) s k) (ix3 b s k) ?_).trans ?_
  · rw [Shape.rowMajor_val_three, Shape.rowMajor_val_four]
    show (b.val * 1024 + s.val) * 64 + k.val = (((b.val / 16) * 16 + b.val % 16) * 1024 + s.val) * 64 + k.val
    have := b.isLt
    omega
  show x0 (ix3 b s k) * val_main_v0 (F := Ideal) (ix3 b s k) = _
  rw [val_main_v0_apply]
  rfl

/-- An array regrouped from [4, 16, 1024, 64] to [64, 1024, 64] reads, at (b, s, k), the operand at (b / 16, b mod 16, s, k). -/
theorem regroup_entry (y : (⟨S4x16x1024x64, .f32⟩ : BufTy).Contents (Elt Ideal)) (b : Fin 64) (s : Fin 1024) (k : Fin 64) :
    shapeCast S64x1024x64 y shapeCasts_S4x16x1024x64_S64x1024x64 (ix3 b s k) = y (ix4 (nq b) (hd b) s k) := by
  refine shapeCast_apply _ _ (ix3 b s k) (ix4 (nq b) (hd b) s k) ?_
  rw [Shape.rowMajor_val_four, Shape.rowMajor_val_three]
  show (((b.val / 16) * 16 + b.val % 16) * 1024 + s.val) * 64 + k.val = (b.val * 1024 + s.val) * 64 + k.val
  have := b.isLt
  omega

/-- A content-biased query entry: the scaled query plus the content bias row of the entry's head. -/
theorem v5_entry (b : Fin 64) (s : Fin 1024) (k : Fin 64) :
    val_main_v5 (F := Ideal) x0 x3 (ix3 b s k)
      = x0 (ix3 b s k) * Ideal.ofBits .f32 0x3E000000#32 + x3 (ix4 (0 : Fin 1) (hd b) (0 : Fin 1) k) := by
  unfold val_main_v5
  refine (regroup_entry _ b s k).trans ?_
  show val_main_v2 (F := Ideal) x0 (ix4 (nq b) (hd b) s k) + val_main_v3 (F := Ideal) x3 (ix4 (nq b) (hd b) s k) = _
  rw [v2_entry, val_main_v3_apply]
  exact congrArg (fun y => x0 (ix3 b s k) * Ideal.ofBits .f32 0x3E000000#32 + x3 y) (funext fun a => Fin.ext (by
    match a with | ⟨0, _⟩ => rfl | ⟨1, _⟩ => rfl | ⟨2, _⟩ => rfl | ⟨3, _⟩ => rfl))

/-- A position-biased query entry: the scaled query plus the position bias row of the entry's head. -/
theorem v8_entry (b : Fin 64) (s : Fin 1024) (k : Fin 64) :
    val_main_v8 (F := Ideal) x0 x4 (ix3 b s k)
      = x0 (ix3 b s k) * Ideal.ofBits .f32 0x3E000000#32 + x4 (ix4 (0 : Fin 1) (hd b) (0 : Fin 1) k) := by
  unfold val_main_v8
  refine (regroup_entry _ b s k).trans ?_
  show val_main_v2 (F := Ideal) x0 (ix4 (nq b) (hd b) s k) + val_main_v6 (F := Ideal) x4 (ix4 (nq b) (hd b) s k) = _
  rw [v2_entry, val_main_v6_apply]
  exact congrArg (fun y => x0 (ix3 b s k) * Ideal.ofBits .f32 0x3E000000#32 + x4 y) (funext fun a => Fin.ext (by
    match a with | ⟨0, _⟩ => rfl | ⟨1, _⟩ => rfl | ⟨2, _⟩ => rfl | ⟨3, _⟩ => rfl))

/-- The repeated position table: entry (b, t, k) is the cut table of head b mod 16. -/
theorem v12_entry (b : Fin 64) (t : Fin 1024) (k : Fin 64) :
    val_main_v12 (F := Ideal) x5 (ix3 b t k) = val_main_v9 (F := Ideal) x5 (ix3 (hd b) t k) := by
  unfold val_main_v12
  refine (shapeCast_apply _ _ (ix3 b t k) (j6 (nq b) (hd b) t k) ?_).trans ?_
  · rw [Shape.rowMajor_val_six, Shape.rowMajor_val_three]
    show (((((b.val / 16) * 16 + b.val % 16) * 1 + 0) * 1024 + t.val) * 1 + 0) * 64 + k.val = (b.val * 1024 + t.val) * 64 + k.val
    have := b.isLt
    omega
  refine (val_main_v11_apply x5 _).trans ?_
  unfold val_main_v10
  refine shapeCast_apply _ _ _ (ix3 (hd b) t k) ?_
  rw [Shape.rowMajor_val_three, Shape.rowMajor_val_six]
  show ((b.val % 16) * 1024 + t.val) * 64 + k.val = ((((0 * 16 + b.val % 16) * 1 + 0) * 1024 + t.val) * 1 + 0) * 64 + k.val
  have := b.isLt
  omega

/-! ## The two score products -/

theorem v13_entry (b : Fin 64) (s u : Fin 1024) :
    val_main_v13 (F := Ideal) x0 x1 x3 (ix3 b s u)
      = ∑ k : Fin 64, (x0 (ix3 b s k) * Ideal.ofBits .f32 0x3E000000#32 + x3 (ix4 (0 : Fin 1) (hd b) (0 : Fin 1) k)) * x1 (ix3 b u k) := by
  rw [val_main_v13_apply]
  refine Finset.sum_congr rfl fun k _ => ?_
  have el : lidx_main_v13 (ix3 b s u) k = ix3 b s k := funext fun a => Fin.ext (by
    match a with | ⟨0, _⟩ => rfl | ⟨1, _⟩ => rfl | ⟨2, _⟩ => rfl)
  have er : ridx_main_v13 (ix3 b s u) k = ix3 b u k := funext fun a => Fin.ext (by
    match a with | ⟨0, _⟩ => rfl | ⟨1, _⟩ => rfl | ⟨2, _⟩ => rfl)
  rw [el, er, v5_entry]

/-- The reference's position scores are the specification's, from the cut position table. -/
theorem v14_eq : val_main_v14 (F := Ideal) x0 x4 x5 = posArr x0 (val_main_v9 (F := Ideal) x5) x4 := by
  funext i
  obtain ⟨b, s, u, rfl⟩ : ∃ (b : Fin 64) (s : Fin 1024) (u : Fin 1024), i = ix3 b s u := ⟨i 0, i 1, i 2, eq_ix3 i⟩
  rw [val_main_v14_apply]
  unfold posArr
  refine Finset.sum_congr rfl fun k _ => ?_
  have el : lidx_main_v14 (ix3 b s u) k = ix3 b s k := funext fun a => Fin.ext (by
    match a with | ⟨0, _⟩ => rfl | ⟨1, _⟩ => rfl | ⟨2, _⟩ => rfl)
  have er : ridx_main_v14 (ix3 b s u) k = ix3 b u k := funext fun a => Fin.ext (by
    match a with | ⟨0, _⟩ => rfl | ⟨1, _⟩ => rfl | ⟨2, _⟩ => rfl)
  rw [el, er, v12_entry, v8_entry]

/-- A score: the content product plus the shifted position score. -/
theorem v19_entry (b : Fin 64) (s u : Fin 1024) :
    val_main_v19 (F := Ideal) x0 x1 x3 x4 x5 (ix3 b s u)
      = (∑ k : Fin 64, (x0 (ix3 b s k) * Ideal.ofBits .f32 0x3E000000#32 + x3 (ix4 (0 : Fin 1) (hd b) (0 : Fin 1) k)) * x1 (ix3 b u k))
        + val_main_v18 (F := Ideal) x0 x4 x5 (ix3 b s u) := by
  show val_main_v13 (F := Ideal) x0 x1 x3 (ix3 b s u) + val_main_v18 (F := Ideal) x0 x4 x5 (ix3 b s u) = _
  rw [v13_entry]

/-! ## The softmax of a score row -/

/-- Joining `-∞` with a value by the maximum leaves the value. -/
theorem maximumf_ninf (y : Ideal .f32) :
    FloatOps.maximumf (FloatOps.ofBits (F := Ideal) .f32 0xFF800000#32) y = y := by
  rw [Ideal.maximumf_def, Ideal.ofBits_def, ninf_bot]
  exact max_eq_right bot_le

theorem v22_entry (b : Fin 64) (s : Fin 1024) :
    val_main_v22 (F := Ideal) x0 x1 x3 x4 x5 (ix2 b s) = rowMax (fun u : Fin 1024 => val_main_v19 (F := Ideal) x0 x1 x3 x4 x5 (ix3 b s u)) := by
  rw [val_main_v22_apply, val_main_v21_apply, val_main_cst_2_apply, maximumf_ninf]
  unfold val_main_v20
  exact hostMax_rows3 _ _ reducesTo_S64x1024x1024_S64x1024_d2 (by decide) h_S_ b s

theorem v26_entry (b : Fin 64) (s u : Fin 1024) :
    val_main_v26 (F := Ideal) x0 x1 x3 x4 x5 (ix3 b s u) = rowExp (fun w : Fin 1024 => val_main_v19 (F := Ideal) x0 x1 x3 x4 x5 (ix3 b s w)) u := by
  rw [val_main_v26_apply, val_main_v25_apply, val_main_v24_apply, val_main_v23_apply]
  have e : idx_main_v23 (idx_main_v24 (ix3 b s u)) = ix2 b s := funext fun a => Fin.ext (by
    match a with | ⟨0, _⟩ => rfl | ⟨1, _⟩ => rfl)
  rw [e, v22_entry, Ideal.hostUnary_exp_def, Ideal.subf_def]
  rfl

theorem v29_entry (b : Fin 64) (s u : Fin 1024) :
    val_main_v29 (F := Ideal) x0 x1 x3 x4 x5 (ix3 b s u)
      = ∑ w : Fin 1024, rowExp (fun w : Fin 1024 => val_main_v19 (F := Ideal) x0 x1 x3 x4 x5 (ix3 b s w)) w := by
  rw [val_main_v29_apply, val_main_v28_apply]
  have e : idx_main_v28 (idx_main_v29 (ix3 b s u)) = ix2 b s := funext fun a => Fin.ext (by
    match a with | ⟨0, _⟩ => rfl | ⟨1, _⟩ => rfl)
  rw [e, val_main_v27_apply, val_main_cst_3_apply, Ideal.ofBits_def, Ideal.ofBits_zero_f32, zero_add]
  refine Finset.sum_congr rfl fun w _ => ?_
  have e' : idx_main_v27 (ix2 b s) w = ix3 b s w := funext fun a => Fin.ext (by
    match a with | ⟨0, _⟩ => rfl | ⟨1, _⟩ => rfl | ⟨2, _⟩ => rfl)
  rw [e', v26_entry]

theorem v30_entry (b : Fin 64) (s u : Fin 1024) :
    val_main_v30 (F := Ideal) x0 x1 x3 x4 x5 (ix3 b s u) = rowWeight (fun w : Fin 1024 => val_main_v19 (F := Ideal) x0 x1 x3 x4 x5 (ix3 b s w)) u := by
  rw [val_main_v30_apply, v26_entry, v29_entry, Ideal.hostDivf_def]
  rfl

/-! ## The result -/

/-- The reference's result is the specification's attention array over its own shifted position scores. -/
theorem v31_eq : val_main_v31 (F := Ideal) x0 x1 x2 x3 x4 x5 = attnArr x0 x1 x2 x3 (val_main_v18 (F := Ideal) x0 x4 x5) := by
  funext i
  obtain ⟨b, s, v, rfl⟩ : ∃ (b : Fin 64) (s : Fin 1024) (v : Fin 64), i = ix3 b s v := ⟨i 0, i 1, i 2, eq_ix3 i⟩
  rw [val_main_v31_apply]
  unfold attnArr rowAttn
  refine Finset.sum_congr rfl fun u _ => ?_
  have el : lidx_main_v31 (ix3 b s v) u = ix3 b s u := funext fun a => Fin.ext (by
    match a with | ⟨0, _⟩ => rfl | ⟨1, _⟩ => rfl | ⟨2, _⟩ => rfl)
  have er : ridx_main_v31 (ix3 b s v) u = ix3 b u v := funext fun a => Fin.ext (by
    match a with | ⟨0, _⟩ => rfl | ⟨1, _⟩ => rfl | ⟨2, _⟩ => rfl)
  rw [el, er, v30_entry]
  exact congrArg (fun f => rowWeight f u * x2 (ix3 b u v)) (funext fun w => v19_entry x0 x1 x3 x4 x5 b s w)

end Cert.ReferenceIdeal.RefValue

end
-- ==== Proof.Bridge.lean ====
/-
  The idealized kernel's result array is the reference's result term of the same arguments.

  The first region leaves the specification's position scores, from the queries, the host's cut of the position table
  and the position bias; the reference's position scores are the same array.  Both programs then pad, re-lay and cut
  that array by the same three host operations (the kernel's zero column is the bf16 zero word, the reference's the
  f32 zero word: both the number 0), and the second region leaves the specification's attention array over the result,
  which is what the reference's softmax and last product compute.
-/
import proofs.«127537_j48670569398462_2_alg».proof.Proof.KRun
import proofs.«127537_j48670569398462_2_alg».proof.Proof.Reg0
import proofs.«127537_j48670569398462_2_alg».proof.Proof.Reg1
import proofs.«127537_j48670569398462_2_alg».proof.Proof.Between
import proofs.«127537_j48670569398462_2_alg».proof.Proof.RefSide

set_option maxRecDepth 16384

noncomputable section

namespace Cert.Bridge

open Cert.KernelIdeal Cert.KernelIdeal.Gen Idealize.ShloMosaic Idealize.ShloMosaic.TcCoe Idealize.SL.Sem
open Cert.Spec Cert.KernelIdeal.Between

/-- The relative shift as the kernel's host operations spell it: a column in front, the re-lay, the first row dropped. -/
def shiftK (z : S64x1024x1.Idx → EReal) (P : S64x1024x1024.Idx → EReal) : S64x1024x1024.Idx → EReal :=
  extractStridedSlice S64x1024x1024 ![0, 1, 0]
    (shapeCast S64x1025x1024
      (concatenate S64x1024x1025 2 [⟨S64x1024x1, z⟩, ⟨S64x1024x1024, P⟩] concatenates_S64x1024x1_S64x1024x1024_S64x1024x1025_d2)
      shapeCasts_S64x1024x1025_S64x1025x1024)
    slices_S64x1025x1024_S64x1024x1024_0_1_0

/-- The reference's shift is the same three operations. -/
theorem ref_shift (a0 : (⟨Cert.ReferenceIdeal.S64x1024x64, .f32⟩ : BufTy).Contents (Elt Ideal))
    (a4 : (⟨Cert.ReferenceIdeal.S1x16x1x64, .f32⟩ : BufTy).Contents (Elt Ideal))
    (a5 : (⟨Cert.ReferenceIdeal.S16x2048x64, .f32⟩ : BufTy).Contents (Elt Ideal)) :
    Cert.ReferenceIdeal.Read.val_main_v18 (F := Ideal) a0 a4 a5
      = shiftK (Cert.ReferenceIdeal.Read.val_main_v15 (F := Ideal)) (Cert.ReferenceIdeal.Read.val_main_v14 (F := Ideal) a0 a4 a5) := rfl

/-- The two zero columns are one array. -/
theorem zero_col :
    (broadcastInDim S64x1024x1 ![] bcast_S_S64x1024x1 (constant (F := Ideal) S_ .bf16 0x0000#16) : S64x1024x1.Idx → EReal)
      = Cert.ReferenceIdeal.Read.val_main_v15 (F := Ideal) := by
  have hc : (constant (F := Ideal) S_ .bf16 0x0000#16 : S_.Idx → EReal) = Cert.ReferenceIdeal.Read.val_main_cst_0 (F := Ideal) := by
    funext i
    show Ideal.ofBits .bf16 0x0000#16 = Ideal.ofBits .f32 0x00000000#32
    simp [Ideal.ofBits, Ideal.ieee]
  unfold Cert.ReferenceIdeal.Read.val_main_v15
  rw [← hc]

variable (m : (ℓ : Loc nD τ sig) → Buf (Elt Ideal) ℓ) (ρ : Dev nD → PrngReg)

/-- What the first region leaves is the reference's position scores of the launch arrays. -/
theorem pos_eq (c : Dev nD) :
    (dat0 (V1 m ρ) c).arrAt 3 cfg0.N
      = Cert.ReferenceIdeal.Read.val_main_v14 (F := Ideal) (m ((c.tc : Thread nD τ).loc main_arg0))
          (m ((c.tc : Thread nD τ).loc main_arg4)) (m ((c.tc : Thread nD τ).loc main_arg5)) :=
  (Cert.KernelIdeal.Reg0.final (V1 m ρ) c).trans
    ((posArr_congr (W1_main_arg0 m ρ c) (W1_main_v0 m ρ c) (W1_main_arg4 m ρ c)).trans
      (Cert.ReferenceIdeal.RefValue.v14_eq _ _ _).symm)

/-- The shifted position scores the second region reads are the reference's. -/
theorem shift_eq (c : Dev nD) :
    (W3 m ρ c (Proc.devRef .tc main_v5) : S64x1024x1024.Idx → EReal)
      = Cert.ReferenceIdeal.Read.val_main_v18 (F := Ideal) (m ((c.tc : Thread nD τ).loc main_arg0))
          (m ((c.tc : Thread nD τ).loc main_arg4)) (m ((c.tc : Thread nD τ).loc main_arg5)) :=
  (W3_main_v5 m ρ c).trans
    ((show shiftK _ _ = shiftK _ _ from congrArg₂ shiftK zero_col (pos_eq m ρ c)).trans (ref_shift _ _ _).symm)

/-- The result array after the run is the reference's result term of the launch arrays. -/
theorem kernel_result (c : Dev nD) :
    W4 m ρ c (Proc.devRef .tc main_v6)
      = Cert.ReferenceIdeal.Read.val_main_v31 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) :=
  (Cert.KernelIdeal.Whole.result_eq_arrAt m ρ c).trans
    ((Cert.KernelIdeal.Reg1.final (V3 m ρ) c).trans
      ((attnArr_congr (W3_main_arg0 m ρ c) (W3_main_arg1 m ρ c) (W3_main_arg2 m ρ c) (W3_main_arg3 m ρ c) (shift_eq m ρ c)).trans
        (Cert.ReferenceIdeal.RefValue.v31_eq _ _ _ _ _ _).symm))

end Cert.Bridge

end
-- ==== Proof.lean ====
/-
  Relative-position attention: a kernel of two pipelined regions against its jnp reference, on the extended reals.

  Both programs compute, for every batch entry b (head b mod 16), query row s and value column v,
    out(b, s, v) = Σ_t softmax_t( (q(b,s,·)/8 + u_bias(head)) · k(b,t,·) + shift(P)(b, s, t) ) · values(b, t, v),
  where P(b, s, t) = (q(b,s,·)/8 + v_bias(head)) · R(head, t, ·) and shift pads a zero column, re-lays and cuts.
  The kernel computes P in its first region one batch entry per grid point, shifts it on the host, and computes the
  softmax and the last product in its second region; the reference does the same with whole-array operations.  No
  algebraic law beyond reading each operation at an entry joins the two sides: the sums run over the same
  coordinates in the same order, so the precondition is not opened.
  The three frames are the generated ones; the idealization rewrote nothing.
-/
import proofs.«127537_j48670569398462_2_alg».proof.Defs
import proofs.«127537_j48670569398462_2_alg».proof.Proof.Gen.Kernel
import proofs.«127537_j48670569398462_2_alg».proof.Proof.Gen.Kernel.Skeleton
import proofs.«127537_j48670569398462_2_alg».proof.Proof.Gen.Kernel.Launch
import proofs.«127537_j48670569398462_2_alg».proof.Proof.Gen.Kernel.Points
import proofs.«127537_j48670569398462_2_alg».proof.Proof.Gen.Kernel.Frame
import proofs.«127537_j48670569398462_2_alg».proof.Proof.Gen.KernelIdeal
import proofs.«127537_j48670569398462_2_alg».proof.Proof.Gen.KernelIdeal.Skeleton
import proofs.«127537_j48670569398462_2_alg».proof.Proof.Gen.KernelIdeal.Launch
import proofs.«127537_j48670569398462_2_alg».proof.Proof.Gen.KernelIdeal.Points
import proofs.«127537_j48670569398462_2_alg».proof.Proof.Gen.KernelIdeal.Frame
import proofs.«127537_j48670569398462_2_alg».proof.Proof.Gen.ReferenceIdeal
import proofs.«127537_j48670569398462_2_alg».proof.Proof.Gen.Pre_finite_inputs
import proofs.«127537_j48670569398462_2_alg».proof.Proof.Gen.ReferenceIdeal.Run
import proofs.«127537_j48670569398462_2_alg».proof.Proof.Gen.ReferenceIdeal.Read
import proofs.«127537_j48670569398462_2_alg».proof.Proof.KRun
import proofs.«127537_j48670569398462_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result array at the reference's result term of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v31 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Bridge.kernel_result m ρ c), (h c).2⟩)
      (Cert.KernelIdeal.Whole.run_named (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v31_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
